-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10x10x2000x500 : Shape := ⟨4, ![10, 10, 2000, 500]⟩
abbrev S100x500 : Shape := ⟨2, ![100, 500]⟩
abbrev S100x10x10 : Shape := ⟨3, ![100, 10, 10]⟩
abbrev S_ : Shape := ⟨0, ![]⟩

class Facts : Prop where
  bcast_S_S10x10x2000x500 : S_.BroadcastsInDim S10x10x2000x500 (![] : Fin 0 → Fin S10x10x2000x500.rank)
  reducesTo_S10x10x2000x500_S_d0_1_2_3 : S10x10x2000x500.ReducesTo [0, 1, 2, 3] S_
  h_S_ : 0 < S_.numel
  bcast_S_S100x500 : S_.BroadcastsInDim S100x500 (![] : Fin 0 → Fin S100x500.rank)
  reducesTo_S100x500_S_d0_1 : S100x500.ReducesTo [0, 1] S_
  bcast_S_S100x10x10 : S_.BroadcastsInDim S100x10x10 (![] : Fin 0 → Fin S100x10x10.rank)
  reducesTo_S100x10x10_S_d0_1_2 : S100x10x10.ReducesTo [0, 1, 2] S_

variable [Facts]

def fn {F : FTy → Type} [FloatOps F] (main_arg0 : FVec F S10x10x2000x500 .f32) (main_arg1 : FVec F S100x500 .f32) (main_arg2 : FVec F S100x10x10 .f32) : IVec S_ 1 :=
  let main_v0 : FVec F S10x10x2000x500 .f32 := Host.absf main_arg0
  let main_cst : FVec F S_ .f32 := constant S_ .f32 0x7F800000#32
  let main_v1 : FVec F S10x10x2000x500 .f32 := broadcastInDim S10x10x2000x500 ![] bcast_S_S10x10x2000x500 main_cst
  let main_v2 : IVec S10x10x2000x500 1 := cmpf .olt main_v0 main_v1
  let main_c : IVec S_ 1 := constantI S_ 1 1#1
  let main_v3 : IVec S_ 1 := (fun x v => Host.reduce IntOp.andi x v reducesTo_S10x10x2000x500_S_d0_1_2_3 h_S_) main_v2 main_c
  let main_v4 : FVec F S100x500 .f32 := Host.absf main_arg1
  let main_cst_0 : FVec F S_ .f32 := constant S_ .f32 0x7F800000#32
  let main_v5 : FVec F S100x500 .f32 := broadcastInDim S100x500 ![] bcast_S_S100x500 main_cst_0
  let main_v6 : IVec S100x500 1 := cmpf .olt main_v4 main_v5
  let main_c_1 : IVec S_ 1 := constantI S_ 1 1#1
  let main_v7 : IVec S_ 1 := (fun x v => Host.reduce IntOp.andi x v reducesTo_S100x500_S_d0_1 h_S_) main_v6 main_c_1
  let main_v8 : IVec S_ 1 := andi main_v3 main_v7
  let main_v9 : FVec F S100x10x10 .f32 := Host.absf main_arg2
  let main_cst_2 : FVec F S_ .f32 := constant S_ .f32 0x7F800000#32
  let main_v10 : FVec F S100x10x10 .f32 := broadcastInDim S100x10x10 ![] bcast_S_S100x10x10 main_cst_2
  let main_v11 : IVec S100x10x10 1 := cmpf .olt main_v9 main_v10
  let main_c_3 : IVec S_ 1 := constantI S_ 1 1#1
  let main_v12 : IVec S_ 1 := (fun x v => Host.reduce IntOp.andi x v reducesTo_S100x10x10_S_d0_1_2 h_S_) main_v11 main_c_3
  let main_v13 : IVec S_ 1 := andi main_v8 main_v12
  main_v13
-- ==== Kernel.lean ====
abbrev S10x10x2000x500 : Shape := ⟨4, ![10, 10, 2000, 500]⟩
abbrev S100x500 : Shape := ⟨2, ![100, 500]⟩
abbrev S100x10x10 : Shape := ⟨3, ![100, 10, 10]⟩
abbrev S_ : Shape := ⟨0, ![]⟩
abbrev S100 : Shape := ⟨1, ![100]⟩
abbrev S100x1 : Shape := ⟨2, ![100, 1]⟩
abbrev S500x100 : Shape := ⟨2, ![500, 100]⟩
abbrev S100x2000x500 : Shape := ⟨3, ![100, 2000, 500]⟩
abbrev S10x10x100 : Shape := ⟨3, ![10, 10, 100]⟩
abbrev S100x1x100 : Shape := ⟨3, ![100, 1, 100]⟩
abbrev S100x1x128 : Shape := ⟨3, ![100, 1, 128]⟩
abbrev S1x2000x500 : Shape := ⟨3, ![1, 2000, 500]⟩
abbrev S1x1x100 : Shape := ⟨3, ![1, 1, 100]⟩
abbrev S1x1x128 : Shape := ⟨3, ![1, 1, 128]⟩
abbrev S2000x500 : Shape := ⟨2, ![2000, 500]⟩
abbrev S2000x100 : Shape := ⟨2, ![2000, 100]⟩
abbrev S2000 : Shape := ⟨1, ![2000]⟩
abbrev S2000x1 : Shape := ⟨2, ![2000, 1]⟩
abbrev S1x100 : Shape := ⟨2, ![1, 100]⟩
abbrev S1 : Shape := ⟨1, ![1]⟩
abbrev S1x1 : Shape := ⟨2, ![1, 1]⟩
abbrev S100x1x1 : Shape := ⟨3, ![100, 1, 1]⟩

abbrev nBuf : Space → Nat
  | .hbm => 31
  | .vmem => 7
  | .smem => 0
  | _ => 0

abbrev bufTy : (tb : Table) → Fin (tcTables nBuf tb) → BufTy
  | .hbm, ⟨0, _⟩ => ⟨S10x10x2000x500, .f32⟩
  | .hbm, ⟨1, _⟩ => ⟨S100x500, .f32⟩
  | .hbm, ⟨2, _⟩ => ⟨S100x10x10, .f32⟩
  | .hbm, ⟨3, _⟩ => ⟨S_, .f32⟩
  | .hbm, ⟨4, _⟩ => ⟨S100, .f32⟩
  | .hbm, ⟨5, _⟩ => ⟨S_, .f32⟩
  | .hbm, ⟨6, _⟩ => ⟨S100, .f32⟩
  | .hbm, ⟨7, _⟩ => ⟨S100, .f32⟩
  | .hbm, ⟨8, _⟩ => ⟨S100x1, .f32⟩
  | .hbm, ⟨9, _⟩ => ⟨S100x500, .f32⟩
  | .hbm, ⟨10, _⟩ => ⟨S100x500, .f32⟩
  | .hbm, ⟨11, _⟩ => ⟨S100x500, .f32⟩
  | .hbm, ⟨12, _⟩ => ⟨S_, .f32⟩
  | .hbm, ⟨13, _⟩ => ⟨S100, .f32⟩
  | .hbm, ⟨14, _⟩ => ⟨S100x1, .f32⟩
  | .hbm, ⟨15, _⟩ => ⟨S100x500, .f32⟩
  | .hbm, ⟨16, _⟩ => ⟨S100x500, .f32⟩
  | .hbm, ⟨17, _⟩ => ⟨S_, .f32⟩
  | .hbm, ⟨18, _⟩ => ⟨S100x500, .f32⟩
  | .hbm, ⟨19, _⟩ => ⟨S100x500, .f32⟩
  | .hbm, ⟨20, _⟩ => ⟨S100x500, .f32⟩
  | .hbm, ⟨21, _⟩ => ⟨S500x100, .f32⟩
  | .hbm, ⟨22, _⟩ => ⟨S100x2000x500, .f32⟩
  | .hbm, ⟨23, _⟩ => ⟨S10x10x100, .f32⟩
  | .hbm, ⟨24, _⟩ => ⟨S100x1x100, .f32⟩
  | .hbm, ⟨25, _⟩ => ⟨S100x1x128, .f32⟩
  | .hbm, ⟨26, _⟩ => ⟨S100x1x1, .f32⟩
  | .hbm, ⟨27, _⟩ => ⟨S100, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x2000x500, .f32⟩
  | .local _ .vmem, ⟨1, _⟩ => ⟨S1x2000x500, .f32⟩
  | .local _ .vmem, ⟨2, _⟩ => ⟨S500x100, .f32⟩
  | .local _ .vmem, ⟨3, _⟩ => ⟨S1x1x100, .f32⟩
  | .local _ .vmem, ⟨4, _⟩ => ⟨S1x1x100, .f32⟩
  | .local _ .vmem, ⟨5, _⟩ => ⟨S1x1x128, .f32⟩
  | .local _ .vmem, ⟨6, _⟩ => ⟨S1x1x128, .f32⟩
  | _, _ => ⟨S10x10x2000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S100x500_S100_d1 : S100x500.ReducesTo [1] S100
  h_S_ : 0 < S_.numel
  bcast_S_S100 : S_.BroadcastsInDim S100 (![] : Fin 0 → Fin S100.rank)
  bcast_S100_S100x1_0 : S100.BroadcastsInDim S100x1 (![0] : Fin 1 → Fin S100x1.rank)
  bcast_S100x1_S100x500_0_1 : S100x1.BroadcastsInDim S100x500 (![0, 1] : Fin 2 → Fin S100x500.rank)
  bcast_S_S100x500 : S_.BroadcastsInDim S100x500 (![] : Fin 0 → Fin S100x500.rank)
  transposes_S100x500_S500x100_1_0 : S100x500.Transposes [1, 0] S500x100
  shapeCasts_S10x10x2000x500_S100x2000x500 : S10x10x2000x500.ShapeCasts S100x2000x500
  transposes_S100x10x10_S10x10x100_1_2_0 : S100x10x10.Transposes [1, 2, 0] S10x10x100
  shapeCasts_S10x10x100_S100x1x100 : S10x10x100.ShapeCasts S100x1x100
  inb_S1x2000x500_S1x2000x500_0_0_0 : ∀ a, (![0, 0, 0] : Fin 3 → Nat) a + S1x2000x500.size a ≤ S1x2000x500.size a
  h_S1x2000x500 : 0 < S1x2000x500.numel
  shapeCasts_S1x2000x500_S2000x500 : S1x2000x500.ShapeCasts S2000x500
  bitsLt_bf16_f32 : FTy.bits .bf16 < FTy.bits .f32
  inb_S500x100_S500x100_0_0 : ∀ a, (![0, 0] : Fin 2 → Nat) a + S500x100.size a ≤ S500x100.size a
  h_S500x100 : 0 < S500x100.numel
  shapeCasts_S500x100_S500x100 : S500x100.ShapeCasts S500x100
  reduces_S2000x100_S2000 : S2000x100.Reduces [1] S2000
  shapeCasts_S2000_S2000x1 : S2000.ShapeCasts S2000x1
  inb_S1x1x100_S1x1x100_0_0_0 : ∀ a, (![0, 0, 0] : Fin 3 → Nat) a + S1x1x100.size a ≤ S1x1x100.size a
  h_S1x1x100 : 0 < S1x1x100.numel
  shapeCasts_S1x1x100_S1x100 : S1x1x100.ShapeCasts S1x100
  broadcasts_S2000x1_S2000x100 : S2000x1.Broadcasts S2000x100
  broadcasts_S1x100_S2000x100 : S1x100.Broadcasts S2000x100
  reduces_S2000x1_S1 : S2000x1.Reduces [0] S1
  shapeCasts_S1_S1x1 : S1.ShapeCasts S1x1
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  slices_S100x1x128_S100x1x1_0_0_0 : S100x1x128.Slices ![0, 0, 0] S100x1x1
  shapeCasts_S100x1x1_S100 : S100x1x1.ShapeCasts S100
  reducesTo_S100_S_d0 : S100.ReducesTo [0] S_
  dot_S2000x500_S500x100_S2000x100_1_0_0_1_n_n_wf : DotDims.WF S2000x500 S500x100 S2000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x500.size a ≤ S100x2000x500.size a
  hwx0_0 : ∀ i : grid0.Coords, EltTy.bits .f32 = 32 ∨ (Rect.block (s := S100x2000x500) S1x2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x100.size a ≤ S500x100.size a
  hwx0_1 : ∀ i : grid0.Coords, EltTy.bits .f32 = 32 ∨ (Rect.block (s := S500x100) S500x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x100.size a ≤ S100x1x100.size a
  hwx0_2 : ∀ i : grid0.Coords, EltTy.bits .f32 = 32 ∨ (Rect.block (s := S100x1x100) S1x1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S100x1x128.size a
  hwx0_3 : ∀ i : grid0.Coords, EltTy.bits .f32 = 32 ∨ (Rect.block (s := S100x1x128) S1x1x128.size (cc0_transform_3 i) (hinb0_3 i)).WholeWords (EltTy.packing .f32)

variable [Facts₀]

def dot_S2000x500_S500x100_S2000x100_1_0_0_1_n_n : DotDims S2000x500 S500x100 S2000x100 where
  lhsContracting := [1]
  rhsContracting := [0]
  lhsNonContracting := [0]
  rhsNonContracting := [1]
  lhsBatch := []
  rhsBatch := []
  wf := dot_S2000x500_S500x100_S2000x100_1_0_0_1_n_n_wf

abbrev win0_0 : Pipeline.Window sig grid0 :=
  Pipeline.Window.ofSpec (Memref.whole main_v15) S1x2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S500x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10x10x2000x500 : Shape := ⟨4, ![10, 10, 2000, 500]⟩
abbrev S100x500 : Shape := ⟨2, ![100, 500]⟩
abbrev S100x10x10 : Shape := ⟨3, ![100, 10, 10]⟩
abbrev S_ : Shape := ⟨0, ![]⟩
abbrev S100 : Shape := ⟨1, ![100]⟩
abbrev S100x1 : Shape := ⟨2, ![100, 1]⟩
abbrev S10x10x2000x100 : Shape := ⟨4, ![10, 10, 2000, 100]⟩
abbrev S10x10x2000 : Shape := ⟨3, ![10, 10, 2000]⟩
abbrev S10x10x2000x1 : Shape := ⟨4, ![10, 10, 2000, 1]⟩
abbrev S10x10x100 : Shape := ⟨3, ![10, 10, 100]⟩
abbrev S10x10x1x100 : Shape := ⟨4, ![10, 10, 1, 100]⟩

abbrev nBuf : Space → Nat
  | .hbm => 43
  | .vmem => 0
  | .smem => 0
  | _ => 0

abbrev bufTy : (tb : Table) → Fin (tcTables nBuf tb) → BufTy
  | .hbm, ⟨0, _⟩ => ⟨S10x10x2000x500, .f32⟩
  | .hbm, ⟨1, _⟩ => ⟨S100x500, .f32⟩
  | .hbm, ⟨2, _⟩ => ⟨S100x10x10, .f32⟩
  | .hbm, ⟨3, _⟩ => ⟨S_, .f32⟩
  | .hbm, ⟨4, _⟩ => ⟨S100, .f32⟩
  | .hbm, ⟨5, _⟩ => ⟨S_, .f32⟩
  | .hbm, ⟨6, _⟩ => ⟨S100, .f32⟩
  | .hbm, ⟨7, _⟩ => ⟨S100, .f32⟩
  | .hbm, ⟨8, _⟩ => ⟨S100x1, .f32⟩
  | .hbm, ⟨9, _⟩ => ⟨S100x500, .f32⟩
  | .hbm, ⟨10, _⟩ => ⟨S100x500, .f32⟩
  | .hbm, ⟨11, _⟩ => ⟨S100x500, .f32⟩
  | .hbm, ⟨12, _⟩ => ⟨S_, .f32⟩
  | .hbm, ⟨13, _⟩ => ⟨S100, .f32⟩
  | .hbm, ⟨14, _⟩ => ⟨S100x1, .f32⟩
  | .hbm, ⟨15, _⟩ => ⟨S100x500, .f32⟩
  | .hbm, ⟨16, _⟩ => ⟨S100x500, .f32⟩
  | .hbm, ⟨17, _⟩ => ⟨S_, .f32⟩
  | .hbm, ⟨18, _⟩ => ⟨S100x500, .f32⟩
  | .hbm, ⟨19, _⟩ => ⟨S100x500, .f32⟩
  | .hbm, ⟨20, _⟩ => ⟨S100x500, .f32⟩
  | .hbm, ⟨21, _⟩ => ⟨S10x10x2000x100, .f32⟩
  | .hbm, ⟨22, _⟩ => ⟨S_, .f32⟩
  | .hbm, ⟨23, _⟩ => ⟨S10x10x2000, .f32⟩
  | .hbm, ⟨24, _⟩ => ⟨S10x10x2000x1, .f32⟩
  | .hbm, ⟨25, _⟩ => ⟨S10x10x100, .f32⟩
  | .hbm, ⟨26, _⟩ => ⟨S10x10x1x100, .f32⟩
  | .hbm, ⟨27, _⟩ => ⟨S10x10x2000, .f32⟩
  | .hbm, ⟨28, _⟩ => ⟨S10x10x2000x100, .f32⟩
  | .hbm, ⟨29, _⟩ => ⟨S10x10x2000x100, .f32⟩
  | .hbm, ⟨30, _⟩ => ⟨S10x10x2000x100, .f32⟩
  | .hbm, ⟨31, _⟩ => ⟨S10x10x2000x100, .f32⟩
  | .hbm, ⟨32, _⟩ => ⟨S10x10x2000x100, .f32⟩
  | .hbm, ⟨33, _⟩ => ⟨S_, .f32⟩
  | .hbm, ⟨34, _⟩ => ⟨S10x10x2000, .f32⟩
  | .hbm, ⟨35, _⟩ => ⟨S_, .f32⟩
  | .hbm, ⟨36, _⟩ => ⟨S10x10x2000, .f32⟩
  | .hbm, ⟨37, _⟩ => ⟨S10x10x2000, .f32⟩
  | .hbm, ⟨38, _⟩ => ⟨S10x10x2000, .f32⟩
  | .hbm, ⟨39, _⟩ => ⟨S10x10x2000, .f32⟩
  | .hbm, ⟨40, _⟩ => ⟨S_, .f32⟩
  | .hbm, ⟨41, _⟩ => ⟨S_, .f32⟩
  | .hbm, ⟨42, _⟩ => ⟨S_, .f32⟩
  | _, _ => ⟨S10x10x2000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  reducesTo_S100x500_S100_d1 : S100x500.ReducesTo [1] S100
  h_S_ : 0 < S_.numel
  bcast_S_S100 : S_.BroadcastsInDim S100 (![] : Fin 0 → Fin S100.rank)
  bcast_S100_S100x1_0 : S100.BroadcastsInDim S100x1 (![0] : Fin 1 → Fin S100x1.rank)
  bcast_S100x1_S100x500_0_1 : S100x1.BroadcastsInDim S100x500 (![0, 1] : Fin 2 → Fin S100x500.rank)
  bcast_S_S100x500 : S_.BroadcastsInDim S100x500 (![] : Fin 0 → Fin S100x500.rank)
  reducesTo_S10x10x2000x100_S10x10x2000_d3 : S10x10x2000x100.ReducesTo [3] S10x10x2000
  bcast_S10x10x2000_S10x10x2000x1_0_1_2 : S10x10x2000.BroadcastsInDim S10x10x2000x1 (![0, 1, 2] : Fin 3 → Fin S10x10x2000x1.rank)
  transposes_S100x10x10_S10x10x100_1_2_0 : S100x10x10.Transposes [1, 2, 0] S10x10x100
  bcast_S10x10x100_S10x10x1x100_0_1_3 : S10x10x100.BroadcastsInDim S10x10x1x100 (![0, 1, 3] : Fin 3 → Fin S10x10x1x100.rank)
  shapeCasts_S10x10x2000x1_S10x10x2000 : S10x10x2000x1.ShapeCasts S10x10x2000
  bcast_S10x10x2000x1_S10x10x2000x100_0_1_2_3 : S10x10x2000x1.BroadcastsInDim S10x10x2000x100 (![0, 1, 2, 3] : Fin 4 → Fin S10x10x2000x100.rank)
  bcast_S10x10x1x100_S10x10x2000x100_0_1_2_3 : S10x10x1x100.BroadcastsInDim S10x10x2000x100 (![0, 1, 2, 3] : Fin 4 → Fin S10x10x2000x100.rank)
  bcast_S_S10x10x2000 : S_.BroadcastsInDim S10x10x2000 (![] : Fin 0 → Fin S10x10x2000.rank)
  reducesTo_S10x10x2000_S_d0_1_2 : S10x10x2000.ReducesTo [0, 1, 2] S_
  dot_S10x10x2000x500_S100x500_S10x10x2000x100_3_1_012_0_n_n_wf : DotDims.WF S10x10x2000x500 S100x500 S10x10x2000x100 [3] [1] [0, 1, 2] [0] [] []

variable [Facts₀]

def dot_S10x10x2000x500_S100x500_S10x10x2000x100_3_1_012_0_n_n : DotDims S10x10x2000x500 S100x500 S10x10x2000x100 where
  lhsContracting := [3]
  rhsContracting := [1]
  lhsNonContracting := [0, 1, 2]
  rhsNonContracting := [0]
  lhsBatch := []
  rhsBatch := []
  wf := dot_S10x10x2000x500_S100x500_S10x10x2000x100_3_1_012_0_n_n_wf

class Facts : Prop extends Facts₀ where

variable [Facts]
-- ==== Proof.LibSumBlocks.lean ====
/-
  Sums over index sets, by coordinates and regrouped.

  The index set of a length-n array is its one coordinate range, so a sum over it is the sum over the coordinate.
  The index set of an [a, b, c] array is the product of its three coordinate ranges, so a sum over it is the triple
  sum over the coordinates. The pairs (x, y) of the first two ranges are numbered row-major by p = x*b + y, with
  x = p / b and y = p % b; so the triple sum is also the sum over p below a*b, and then over the last coordinate, of the
  term at (p / b, p % b, z). Both hold in any commutative additive monoid: only the order and the grouping of the terms
  change.
-/
import Idealize.ShloMosaic.Lib.ValueIdx

noncomputable section

open scoped BigOperators

namespace Cert.LibSumBlocks

open Idealize.ShloMosaic Idealize.ShloMosaic.ValueIdx

/-- A rank-1 index set is its one coordinate range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ x : Fin n0, ∑ y : Fin n1, ∑ z : Fin n2, f (ix3 x y z) := by
  rw [← Equiv.sum_comp (idxEquiv3 (n0 := n0) (n1 := n1) (n2 := n2)).symm f, Fintype.sum_prod_type]
  refine Finset.sum_congr rfl fun x _ => ?_
  rw [Fintype.sum_prod_type]
  rfl

/-- The quotient of a number below n = a*b by b is below a. -/
theorem div_lt_of_lt_mul {a b n : Nat} (hn : n = a * b) (p : Fin n) : p.val / b < a := by
  have hp : p.val < b * a := by rw [Nat.mul_comm]; exact lt_of_lt_of_eq p.isLt hn
  exact Nat.div_lt_of_lt_mul hp

/-- Its remainder is below b (b is positive, since some number is below a*b). -/
theorem mod_lt_of_lt_mul {a b n : Nat} (hn : n = a * b) (p : Fin n) : p.val % b < b := by
  have hp : p.val < a * b := lt_of_lt_of_eq p.isLt hn
  rcases Nat.eq_zero_or_pos b with h | h
  · rw [h, Nat.mul_zero] at hp; exact absurd hp (Nat.not_lt_zero _)
  · exact Nat.mod_lt _ h

/-- A double sum over x below a and y below b is the sum over p below n = a*b of the term at (p / b, p % b). -/
theorem sum_pair_eq_sum_flat {M : Type*} [AddCommMonoid M] {a b n : Nat} (hn : n = a * b) (g : Fin a → Fin b → M) :
    ∑ x : Fin a, ∑ y : Fin b, g x y
      = ∑ p : Fin n, g ⟨p.val / b, div_lt_of_lt_mul hn p⟩ ⟨p.val % b, mod_lt_of_lt_mul hn p⟩ := by
  subst hn
  rw [← Fintype.sum_prod_type', ← Equiv.sum_comp (finProdFinEquiv (m := a) (n := b)).symm]
  refine Finset.sum_congr rfl fun p _ => ?_
  rfl

/-- A sum over the index set of an [a, b, c] array, by the flat number p of the leading pair and the last coordinate. -/
theorem sum_idx3_flat {M : Type*} [AddCommMonoid M] {a b c n : Nat} (hn : n = a * b)
    (f : (⟨3, ![a, b, c]⟩ : Shape).Idx → M) :
    ∑ i, f i = ∑ p : Fin n, ∑ z : Fin c,
      f (ix3 (⟨p.val / b, div_lt_of_lt_mul hn p⟩ : Fin a) (⟨p.val % b, mod_lt_of_lt_mul hn p⟩ : Fin b) z) := by
  rw [sum_idx3]
  exact sum_pair_eq_sum_flat hn fun x y => ∑ z : Fin c, f (ix3 x y z)

end Cert.LibSumBlocks

end
-- ==== Proof.Spec.lean ====
/-
  The loss, as one function of the three arrays.

  For read r of sample (t, s) and assemblage k the logit is the inner product of the read's counts with the
  assemblage's log-frequencies, `rl k = ∑ o, counts (t,s,r,o) · L (k,o)`. The read's term is the weighted log-sum-exp
  of its hundred logits, taken stably: with `x = max_k rl k` (from −∞),
  `x + log (∑ k, β (k,t,s) · exp (rl k − x) + ε)`. The loss is minus the sum of the terms of all reads.

  The sum over reads can be taken in two arrangements: over the index set of the [10, 10, 2000] array of reads at
  once, or sample by sample — the samples numbered p = 10·t + s below 100 — and inside a sample over its 2000 reads.
  On the extended reals addition is commutative and associative without exception, so the two arrangements give
  the same number whatever the terms are (infinite ones included): no finiteness is used.
-/
import proofs.«119135_j21285857919689_1_alg».proof.Proof.LibSumBlocks
import Idealize.ShloMosaic.PureOps.Ideal
import Idealize.ShloMosaic.Lib.ValueIdx

noncomputable section

open scoped BigOperators

namespace Cert.Mixture

open Idealize.ShloMosaic Idealize.ShloMosaic.ValueIdx

/-- The read counts, [time, subject, read, otu]. -/
abbrev Counts := (⟨4, ![10, 10, 2000, 500]⟩ : Shape).Idx → EReal
/-- The log-frequencies, [assemblage, otu]. -/
abbrev LogFreq := (⟨2, ![100, 500]⟩ : Shape).Idx → EReal
/-- The mixture weights, [assemblage, time, subject]. -/
abbrev Weights := (⟨3, ![100, 10, 10]⟩ : Shape).Idx → EReal

/-- The largest of a read's hundred logits, from −∞. -/
def rowMax (row : Fin 100 → EReal) : EReal :=
  Finset.univ.fold max (Ideal.ofBits .f32 0xFF800000#32) row

/-- A read's term: the stable weighted log-sum-exp of its logits `row` under the weights `w`. -/
def readTerm (row w : Fin 100 → EReal) : EReal :=
  rowMax row + Ideal.log ((∑ k : Fin 100, w k * Ideal.exp (row k - rowMax row)) + Ideal.ofBits .f32 0x358637BD#32)

/-- The sum of the terms of one sample's 2000 reads, from the sample's counts `X` (read, otu), the log-frequencies
    `Y` laid out (otu, assemblage), and the sample's weights `w`. -/
def blockSum (X : Fin 2000 → Fin 500 → EReal) (Y : Fin 500 → Fin 100 → EReal) (w : Fin 100 → EReal) : EReal :=
  ∑ r : Fin 2000, readTerm (fun k => ∑ o : Fin 500, X r o * Y o k) w

/-- Sample number p = 10·t + s: its time … -/
def tOf (p : Fin 100) : Fin 10 := ⟨p.val / 10, by have := p.isLt; omega⟩
/-- … and its subject. -/
def sOf (p : Fin 100) : Fin 10 := ⟨p.val % 10, by omega⟩

/-- The sum of the terms of the reads of sample p. -/
def blockTotal (x0 : Counts) (L : LogFreq) (x2 : Weights) (p : Fin 100) : EReal :=
  blockSum (fun r o => x0 (ix4 (tOf p) (sOf p) r o)) (fun o k => L (ix2 k o)) (fun k => x2 (ix3 k (tOf p) (sOf p)))

/-- The loss, sample by sample. -/
def loss (x0 : Counts) (L : LogFreq) (x2 : Weights) : EReal :=
  -(∑ p : Fin 100, blockTotal x0 L x2 p)

/-- The loss, over all reads at once. -/
def lossByRead (x0 : Counts) (L : LogFreq) (x2 : Weights) : EReal :=
  -(∑ j : (⟨3, ![10, 10, 2000]⟩ : Shape).Idx,
      readTerm (fun k => ∑ o : Fin 500, x0 (ix4 (j 0) (j 1) (j 2) o) * L (ix2 k o)) (fun k => x2 (ix3 k (j 0) (j 1))))

/-- The two arrangements of the sum over reads agree. -/
theorem lossByRead_eq_loss (x0 : Counts) (L : LogFreq) (x2 : Weights) : lossByRead x0 L x2 = loss x0 L x2 := by
  unfold lossByRead loss
  refine congrArg Neg.neg ?_
  rw [Cert.LibSumBlocks.sum_idx3_flat (n := 100) (a := 10) (b := 10) (c := 2000) rfl]
  rfl

end Cert.Mixture

end
-- ==== Proof.RefSide.lean ====
/-
  The reference computes the loss over all reads at once.

  Its program forms the logits of every read in one contraction over the otus, [10, 10, 2000, 100]; takes the largest
  over the assemblages (a reduction from −∞, then carried both as a [10, 10, 2000] array and broadcast back over the
  assemblages); multiplies the exponentials of the logits less that maximum by the weights, transposed to
  [time, subject, assemblage] and broadcast over the reads; sums over the assemblages from zero; adds ε; takes the
  logarithm; adds the maximum; sums over the three axes of reads from zero; negates. Read at an index given by its
  coordinates, each layout step names the coordinates it reads, and the whole is `lossByRead` (Spec) of the counts, the
  log-frequencies (the stage the program computes from its second argument) and the weights.
-/
import proofs.«119135_j21285857919689_1_alg».proof.Proof.Gen.ReferenceIdeal.Read
import proofs.«119135_j21285857919689_1_alg».proof.Proof.Spec
import Idealize.ShloMosaic.PureOps.Reduce
import Idealize.ShloMosaic.PureOps.Ideal.Laws

noncomputable section

open scoped BigOperators

namespace Cert.Mixture.RefSide

open Cert.ReferenceIdeal Cert.ReferenceIdeal.Gen Cert.ReferenceIdeal.Read Idealize.ShloMosaic Idealize.ShloMosaic.ValueIdx
  Cert.Mixture

variable (x0 : (⟨S10x10x2000x500, .f32⟩ : BufTy).Contents (Elt Ideal)) (x1 : (⟨S100x500, .f32⟩ : BufTy).Contents (Elt Ideal))
  (x2 : (⟨S100x10x10, .f32⟩ : BufTy).Contents (Elt Ideal))

/-- The logits of read (t, s, r), from the counts and the program's log-frequency stage. -/
def row (t s : Fin 10) (r : Fin 2000) : Fin 100 → EReal :=
  fun k => ∑ o : Fin 500, x0 (ix4 t s r o) * val_main_v13 (F := Ideal) x1 (ix2 k o)

/-- The contraction at (t, s, r, k) is the inner product over the otus. -/
theorem logit_apply (t s : Fin 10) (r : Fin 2000) (k : Fin 100) :
    val_main_v14 (F := Ideal) x0 x1 (ix4 t s r k) = row x0 x1 t s r k := by
  rw [val_main_v14_apply]
  unfold row
  refine Finset.sum_congr rfl fun o _ => ?_
  have el : lidx_main_v14 (ix4 t s r k) o = ix4 t s r o := funext fun a => by
    match a with
    | ⟨0, _⟩ => rfl
    | ⟨1, _⟩ => rfl
    | ⟨2, _⟩ => rfl
    | ⟨3, _⟩ => rfl
  have er : ridx_main_v14 (ix4 t s r k) o = ix2 k o := funext fun a => by
    match a with
    | ⟨0, _⟩ => rfl
    | ⟨1, _⟩ => rfl
  rw [el, er]

/-- The shapes of the reduction over the assemblages. -/
theorem reduces_last : S10x10x2000x100.Reduces [3] S10x10x2000 := by decide

/-- The maximum over the assemblages at read (t, s, r). -/
theorem max_apply (t s : Fin 10) (r : Fin 2000) :
    val_main_v15 (F := Ideal) x0 x1 (ix3 t s r) = rowMax (row x0 x1 t s r) := by
  unfold val_main_v15
  have h := Host.reduce_eq_fold_single (α := Ideal .f32) (FloatOps.maximumf (F := Ideal) (φ := .f32))
    (val_main_v14 (F := Ideal) x0 x1) (val_main_cst_3 (F := Ideal))
    reducesTo_S10x10x2000x100_S10x10x2000_d3 reduces_last h_S_ (ix3 t s r)
  refine h.trans ?_
  unfold rowMax
  show Finset.fold max (Ideal.ofBits .f32 0xFF800000#32)
      (val_main_v14 (F := Ideal) x0 x1 ∘ reduces_last.lift (ix3 t s r))
      (Finset.univ : Finset (Fin 100)) = Finset.fold max _ (row x0 x1 t s r) Finset.univ
  refine congrArg (fun f => Finset.fold max _ f Finset.univ) (funext fun k => ?_)
  refine Eq.trans (congrArg (val_main_v14 (F := Ideal) x0 x1) ?_) (logit_apply x0 x1 t s r k)
  funext ax
  refine Fin.ext ?_
  match ax with
  | ⟨0, _⟩ => rfl
  | ⟨1, _⟩ => rfl
  | ⟨2, _⟩ => rfl
  | ⟨3, _⟩ => rfl

/-- The maximum, reshaped back to the array of reads. -/
theorem max_col (t s : Fin 10) (r : Fin 2000) :
    val_main_v19 (F := Ideal) x0 x1 (ix3 t s r) = rowMax (row x0 x1 t s r) := by
  rw [val_main_v19_apply, val_main_v16_apply]
  have e : idx_main_v16 (idx_main_v19 (ix3 t s r)) = ix3 t s r := by
    funext a
    refine Fin.ext ?_
    have ht := t.isLt
    have hs := s.isLt
    have hr := r.isLt
    match a with
    | ⟨0, _⟩ => show ((t.val * 10 + s.val) * 2000 + r.val) / 20000 = t.val; omega
    | ⟨1, _⟩ => show ((t.val * 10 + s.val) * 2000 + r.val) / 2000 % 10 = s.val; omega
    | ⟨2, _⟩ => show ((t.val * 10 + s.val) * 2000 + r.val) / 1 % 2000 = r.val; omega
  rw [e, max_apply]

/-- The maximum, broadcast over the assemblages. -/
theorem max_bcast (t s : Fin 10) (r : Fin 2000) (k : Fin 100) :
    val_main_v20 (F := Ideal) x0 x1 (ix4 t s r k) = rowMax (row x0 x1 t s r) := by
  rw [val_main_v20_apply, val_main_v16_apply]
  have e : idx_main_v16 (idx_main_v20 (ix4 t s r k)) = ix3 t s r := funext fun a => by
    match a with
    | ⟨0, _⟩ => rfl
    | ⟨1, _⟩ => rfl
    | ⟨2, _⟩ => rfl
  rw [e, max_apply]

/-- The weights, transposed and broadcast over the reads. -/
theorem weight_apply (t s : Fin 10) (r : Fin 2000) (k : Fin 100) :
    val_main_v23 (F := Ideal) x2 (ix4 t s r k) = x2 (ix3 k t s) := by
  rw [val_main_v23_apply, val_main_v18_apply, val_main_v17_apply]
  refine congrArg x2 (funext fun a => ?_)
  match a with
  | ⟨0, _⟩ => rfl
  | ⟨1, _⟩ => rfl
  | ⟨2, _⟩ => rfl

/-- The summand at read (t, s, r) is the read's term. -/
theorem term_apply (t s : Fin 10) (r : Fin 2000) :
    val_main_v29 (F := Ideal) x0 x1 x2 (ix3 t s r) = readTerm (row x0 x1 t s r) (fun k => x2 (ix3 k t s)) := by
  rw [val_main_v29_apply, val_main_v28_apply, val_main_v27_apply, val_main_v25_apply, val_main_v26_apply, max_col]
  unfold readTerm
  show rowMax (row x0 x1 t s r) + Ideal.log ((Ideal.ofBits .f32 0x00000000#32
      + ∑ k : Fin 100, val_main_v24 (F := Ideal) x0 x1 x2 (idx_main_v25 (ix3 t s r) k)) + Ideal.ofBits .f32 0x358637BD#32) = _
  rw [Ideal.ofBits_zero_f32, zero_add]
  refine congrArg (fun z => rowMax (row x0 x1 t s r) + Ideal.log (z + Ideal.ofBits .f32 0x358637BD#32)) ?_
  refine Finset.sum_congr rfl fun k _ => ?_
  have e : idx_main_v25 (ix3 t s r) k = ix4 t s r k := funext fun a => by
    match a with
    | ⟨0, _⟩ => rfl
    | ⟨1, _⟩ => rfl
    | ⟨2, _⟩ => rfl
    | ⟨3, _⟩ => rfl
  rw [e, val_main_v24_apply, weight_apply, val_main_v22_apply, val_main_v21_apply, logit_apply, max_bcast]
  rfl

/-- The reference's first result is the loss over all reads. -/
theorem result_eq :
    val_main_v31 (F := Ideal) x0 x1 x2 = fun _ => lossByRead x0 (val_main_v13 (F := Ideal) x1) x2 := by
  funext i
  rw [val_main_v31_apply, val_main_v30_apply]
  show -(Ideal.ofBits .f32 0x00000000#32 + ∑ j : S10x10x2000.Idx, val_main_v29 (F := Ideal) x0 x1 x2 j) = _
  rw [Ideal.ofBits_zero_f32, zero_add]
  unfold lossByRead
  refine congrArg Neg.neg (Finset.sum_congr rfl fun j _ => ?_)
  obtain ⟨t, s, r, rfl⟩ : ∃ (t s : Fin 10) (r : Fin 2000), j = ix3 t s r := ⟨j 0, j 1, j 2, eq_ix3 j⟩
  exact term_apply x0 x1 x2 t s r

end Cert.Mixture.RefSide

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibRows.lean ====
/-
  Rows of a matrix and their flat numbering, read at an index.

  A reshape keeps every element's row-major position. So a length-(a*b) array viewed as [a, b] holds at (p, k) the
  array's entry p*b + k; an [a, b, c] array viewed as [a*b, c] holds at (p*b + k, d) the array's entry (p, k, d); a
  column [a, 1] viewed as [a] holds at i the column's entry (i, 0). And, at the extended reals, the sum of an [a, b]
  vector along its second axis (a lane reduction into [a], from the additive neutral word) is, at row r, the plain
  sum over k of the entries (r, k).
-/
import Idealize.ShloMosaic.Lib.Pipeline.Value
import Idealize.ShloMosaic.Lib.ValueIdx
import Idealize.ShloMosaic.PureOps.Ideal.Laws

noncomputable section

namespace Cert.LibRows

open Idealize.ShloMosaic Idealize.ShloMosaic.ValueIdx

variable {α : Type}

/-- A length-n array cast to [a, b] reads, at (p, k), the operand at the entry numbered p*b + k. -/
theorem shapeCast_n_ab_apply {n a b : ℕ} (x : (⟨1, ![n]⟩ : Shape).Idx → α) (h : (⟨1, ![n]⟩ : Shape).ShapeCasts ⟨2, ![a, b]⟩)
    (p : Fin a) (k : Fin b) (r : Fin n) (hr : r.val = p.val * b + k.val) :
    shapeCast ⟨2, ![a, b]⟩ x h (ix2 p k) = x (ix1 r) :=
  shapeCast_apply x h _ _ (by
    rw [Shape.rowMajor_val_two, Shape.rowMajor_val_one]
    exact hr)

/-- An [a, b, c] array cast to [n, c] reads, at (r, d) with r = p*b + k, the operand at (p, k, d). -/
theorem shapeCast_abc_nc_apply {n a b c : ℕ} (x : (⟨3, ![a, b, c]⟩ : Shape).Idx → α)
    (h : (⟨3, ![a, b, c]⟩ : Shape).ShapeCasts ⟨2, ![n, c]⟩)
    (p : Fin a) (k : Fin b) (d : Fin c) (r : Fin n) (hr : r.val = p.val * b + k.val) :
    shapeCast ⟨2, ![n, c]⟩ x h (ix2 r d) = x (ix3 p k d) :=
  shapeCast_apply x h _ _ (by
    rw [Shape.rowMajor_val_two, Shape.rowMajor_val_three]
    show (p.val * b + k.val) * c + d.val = r.val * c + d.val
    rw [hr])

/-- A column [a, 1] cast to [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- At the extended reals the sum of an [a, b] f32 vector along axis 1, from the additive neutral word, is at row r the
    sum over k of the entries (r, k). -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ k : Fin b, v (ix2 r k) := by
  refine (Ideal.multiReduction_add_single v acc h hφ hacc (ix1 r)).trans ?_
  refine Finset.sum_congr rfl fun k _ => congrArg v ?_
  funext ax
  refine Fin.ext ?_
  match ax with
  | ⟨0, _⟩ => rfl
  | ⟨1, _⟩ => rfl

end Cert.LibRows

end
-- ==== Proof.Payload.lean ====
/-
  What one grid point of the kernel computes.

  At a point the body sees one sample: its counts as a [1, 2000, 500] block, the log-frequencies transposed as a
  [500, 100] block, and the sample's weights as a [1, 1, 100] block. It forms the logits [2000, 100] as the product of
  the counts with the transposed log-frequencies (a matrix product into zeros: the plain sum over the 500 otus), takes
  each read's largest logit (a lane maximum from −∞, kept as a column), the weighted sum of the exponentials of the
  logits less that maximum (a lane sum, kept as a column), adds ε, takes the logarithm, adds the maximum back, sums
  the column over the 2000 reads, and writes that one number to all 128 lanes of its output block. The changes of
  float format on the way are the identity on the extended reals.

  So every lane of the block holds `blockSum` (Spec) of the three blocks.
-/
import proofs.«119135_j21285857919689_1_alg».proof.Proof.Gen.KernelIdeal.Skeleton
import proofs.«119135_j21285857919689_1_alg».proof.Proof.Spec
import proofs.«119135_j21285857919689_1_alg».proof.Proof.LibLayout
import proofs.«119135_j21285857919689_1_alg».proof.Proof.LibDense
import proofs.«119135_j21285857919689_1_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mixture.Payload

open Cert.KernelIdeal Cert.KernelIdeal.Gen Idealize.ShloMosaic Idealize.ShloMosaic.ValueIdx Cert.Mixture

/-! ## The body's arithmetic in four stages -/

/-- The logits of the sample's reads: counts times transposed log-frequencies. -/
def logits (x0 : Vec Ideal S1x2000x500 .f32) (x1 : Vec Ideal S500x100 .f32) : FVec Ideal S2000x100 .f32 :=
  matmul dot_S2000x500_S500x100_S2000x100_1_0_0_1_n_n none
    (truncf .bf16 (shapeCast S2000x500 x0 shapeCasts_S1x2000x500_S2000x500) bitsLt_bf16_f32)
    (truncf .bf16 (shapeCast S500x100 x1 shapeCasts_S500x100_S500x100) bitsLt_bf16_f32)
    (constant S2000x100 .f32 0x00000000#32)

/-- Each read's largest logit, as a column. -/
def colMax (v6 : FVec Ideal S2000x100 .f32) : FVec Ideal S2000x1 .f32 :=
  shapeCast S2000x1 (multiReduction .maximumf [1] S2000 v6 0xFF800000#32 reduces_S2000x100_S2000 (.inl rfl) rfl)
    shapeCasts_S2000_S2000x1

/-- The weighted exponentials of the logits less their read's maximum. -/
def weighted (v6 : FVec Ideal S2000x100 .f32) (x2 : Vec Ideal S1x1x100 .f32) : FVec Ideal S2000x100 .f32 :=
  mulf (broadcastTo S2000x100 (shapeCast S1x100 x2 shapeCasts_S1x1x100_S1x100) broadcasts_S1x100_S2000x100)
    (exp (subf v6 (broadcastTo S2000x100 (colMax v6) broadcasts_S2000x1_S2000x100)))

/-- Their sum over the assemblages, as a column. -/
def colSum (v6 : FVec Ideal S2000x100 .f32) (x2 : Vec Ideal S1x1x100 .f32) : FVec Ideal S2000x1 .f32 :=
  shapeCast S2000x1 (multiReduction .add [1] S2000 (weighted v6 x2) 0x00000000#32 reduces_S2000x100_S2000 (.inl rfl) rfl)
    shapeCasts_S2000_S2000x1

/-- Each read's term, as a column. -/
def colTerm (v6 : FVec Ideal S2000x100 .f32) (x2 : Vec Ideal S1x1x100 .f32) : FVec Ideal S2000x1 .f32 :=
  addf (colMax v6) (log (addf (colSum v6 x2) (broadcast S2000x1 (Scalar.ofBits .f32 0x358637BD#32))))

/-- The column's sum, in every lane of the output block. -/
def lanes (v21 : FVec Ideal S2000x1 .f32) : FVec Ideal S1x1x128 .f32 :=
  broadcast S1x1x128
    (extractAt ![0, 0]
      (shapeCast S1x1 (multiReduction .add [0] S1 v21 0x00000000#32 reduces_S2000x1_S1 (.inl rfl) rfl) shapeCasts_S1_S1x1)
      inpos_S1x1_p0_0)

/-- The body's stored value is the four stages composed. -/
theorem pay_eq (x0 : Vec Ideal S1x2000x500 .f32) (x1 : Vec Ideal S500x100 .f32) (x2 : Vec Ideal S1x1x100 .f32) :
    k0_pay1 x0 x1 x2 = lanes (colTerm (logits x0 x1) x2) := rfl

/-! ## The product's operand indices -/

local notation "D" => dot_S2000x500_S500x100_S2000x100_1_0_0_1_n_n

theorem lhs0 (i : S2000x100.Idx) (q : (D).contr.Idx) : ((D).lhsIdx i q 0).val = (i 0).val := by
  unfold DotDims.lhsIdx
  rw [dif_neg (show ¬(0 : Fin S2000x500.rank) ∈ (D).lhsBatch by decide),
    dif_pos (show (0 : Fin S2000x500.rank) ∈ (D).lhsNonContracting by decide)]
  rfl
theorem lhs1 (i : S2000x100.Idx) (q : (D).contr.Idx) : ((D).lhsIdx i q 1).val = (q ⟨0, by decide⟩).val :=
  (D).lhsIdx_val_of_single rfl i q
theorem rhs0 (i : S2000x100.Idx) (q : (D).contr.Idx) : ((D).rhsIdx i q 0).val = (q ⟨0, by decide⟩).val :=
  (D).rhsIdx_val_of_single rfl i q
theorem rhs1 (i : S2000x100.Idx) (q : (D).contr.Idx) : ((D).rhsIdx i q 1).val = (i 1).val := by
  unfold DotDims.rhsIdx
  rw [dif_neg (show ¬(1 : Fin S500x100.rank) ∈ (D).rhsBatch by decide),
    dif_pos (show (1 : Fin S500x100.rank) ∈ (D).rhsNonContracting by decide)]
  rfl

/-! ## Each stage at an index -/

/-- Read r's logit for assemblage k is the inner product over the otus. -/
theorem logits_apply (x0 : Vec Ideal S1x2000x500 .f32) (x1 : Vec Ideal S500x100 .f32) (r : Fin 2000) (k : Fin 100) :
    logits x0 x1 (ix2 r k) = ∑ o : Fin 500, x0 (ix3 (0 : Fin 1) r o) * x1 (ix2 o k) := by
  unfold logits
  refine (Cert.LibDense.matmul_zero_apply (D) rfl rfl lhs0 lhs1 rhs0 rhs1 none _ _ r k).trans ?_
  refine Finset.sum_congr rfl fun o _ => ?_
  show shapeCast S2000x500 x0 shapeCasts_S1x2000x500_S2000x500 (ix2 r o)
      * shapeCast S500x100 x1 shapeCasts_S500x100_S500x100 (ix2 o k) = _
  rw [shapeCast_1ab_ab_apply, shapeCast_self]

/-- The column of maxima at read r is the largest of the read's logits. -/
theorem colMax_apply (v6 : FVec Ideal S2000x100 .f32) (r : Fin 2000) (u : Fin 1) :
    colMax v6 (ix2 r u) = rowMax (fun k => v6 (ix2 r k)) := by
  unfold colMax
  rw [Cert.LibLayout.shapeCast_a_a1_apply]
  refine (Ideal.multiReduction_maximumf_single v6 _ reduces_S2000x100_S2000 _ _ (ix1 r)).trans ?_
  unfold rowMax
  show Finset.fold max (Ideal.ofBits .f32 0xFF800000#32) (v6 ∘ (reduces_S2000x100_S2000).lift (ix1 r))
      (Finset.univ : Finset (Fin 100)) = Finset.fold max _ (fun k => v6 (ix2 r k)) Finset.univ
  refine congrArg (fun f => Finset.fold max _ f Finset.univ) (funext fun k => congrArg v6 ?_)
  funext ax
  refine Fin.ext ?_
  match ax with
  | ⟨0, _⟩ => rfl
  | ⟨1, _⟩ => rfl

/-- The column of terms at read r is the read's term. -/
theorem colTerm_apply (v6 : FVec Ideal S2000x100 .f32) (x2 : Vec Ideal S1x1x100 .f32) (r : Fin 2000) (u : Fin 1) :
    colTerm v6 x2 (ix2 r u) = readTerm (fun k => v6 (ix2 r k)) (fun k => x2 (ix3 (0 : Fin 1) (0 : Fin 1) k)) := by
  have hm := colMax_apply v6 r u
  have hs : colSum v6 x2 (ix2 r u)
      = ∑ k : Fin 100, x2 (ix3 (0 : Fin 1) (0 : Fin 1) k) * Ideal.exp (v6 (ix2 r k) - rowMax (fun k => v6 (ix2 r k))) := by
    unfold colSum
    refine (Cert.LibLayout.shapeCast_a_a1_apply _ _ r u).trans ?_
    refine (Cert.LibRows.rowSum_apply (weighted v6 x2) _ reduces_S2000x100_S2000 _ _ r).trans ?_
    refine Finset.sum_congr rfl fun k _ => ?_
    unfold weighted
    show broadcastTo S2000x100 (shapeCast S1x100 x2 shapeCasts_S1x1x100_S1x100) broadcasts_S1x100_S2000x100 (ix2 r k)
        * Ideal.exp (v6 (ix2 r k) - broadcastTo S2000x100 (colMax v6) broadcasts_S2000x1_S2000x100 (ix2 r k)) = _
    rw [broadcastTo_1b_ab_apply, shapeCast_1ab_ab_apply, Cert.LibLayout.broadcastTo_a1_ab_apply, colMax_apply]
  unfold colTerm readTerm
  exact congrArg₂ (fun a z => a + Ideal.log (z + Ideal.ofBits .f32 0x358637BD#32)) hm hs

/-- Every lane holds the sum of the column over the reads. -/
theorem lanes_apply (v21 : FVec Ideal S2000x1 .f32) (i : S1x1x128.Idx) :
    lanes v21 i = ∑ r : Fin 2000, v21 (ix2 r (0 : Fin 1)) := by
  unfold lanes
  have e : (fun a => ⟨(![0, 0] : Fin 2 → Nat) a, inpos_S1x1_p0_0 a⟩ : S1x1.Idx) = ix2 (0 : Fin 1) (0 : Fin 1) := by
    funext a
    refine Fin.ext ?_
    match a with
    | ⟨0, _⟩ => rfl
    | ⟨1, _⟩ => rfl
  show shapeCast S1x1 (multiReduction .add [0] S1 v21 0x00000000#32 reduces_S2000x1_S1 (.inl rfl) rfl) shapeCasts_S1_S1x1
      (fun a => ⟨(![0, 0] : Fin 2 → Nat) a, inpos_S1x1_p0_0 a⟩) = _
  rw [e, Cert.LibLayout.shapeCast_a_a1_apply]
  refine (Ideal.multiReduction_add_single v21 _ reduces_S2000x1_S1 _ _ (ix1 (0 : Fin 1))).trans ?_
  show ∑ k : Fin 2000, v21 ((reduces_S2000x1_S1).lift (ix1 (0 : Fin 1)) k) = _
  refine Finset.sum_congr rfl fun k _ => congrArg v21 ?_
  funext ax
  refine Fin.ext ?_
  match ax with
  | ⟨0, _⟩ => rfl
  | ⟨1, _⟩ => rfl

/-! ## The block -/

/-- Every lane of the stored block is the sum of the sample's read terms. -/
theorem pay_apply (x0 : Vec Ideal S1x2000x500 .f32) (x1 : Vec Ideal S500x100 .f32) (x2 : Vec Ideal S1x1x100 .f32)
    (i : S1x1x128.Idx) :
    k0_pay1 x0 x1 x2 i
      = blockSum (fun r o => x0 (ix3 (0 : Fin 1) r o)) (fun o k => x1 (ix2 o k)) (fun k => x2 (ix3 (0 : Fin 1) (0 : Fin 1) k)) := by
  rw [pay_eq, lanes_apply]
  unfold blockSum
  refine Finset.sum_congr rfl fun r _ => ?_
  rw [colTerm_apply]
  exact congrArg (fun row => readTerm row _) (funext fun k => logits_apply x0 x1 r k)

end Cert.Mixture.Payload

end
-- ==== Proof.Blocks.lean ====
/-
  From the grid points to the whole output array.

  The region has one grid axis of 100 points, one per sample p = 10·t + s. Before the region the host lays the
  arguments out for it: the counts [10, 10, 2000, 500] viewed as [100, 2000, 500], so that block p is sample p's
  counts; the weights [100, 10, 10] transposed to [time, subject, assemblage] and viewed as [100, 1, 100], so that
  block p is sample p's weights; the log-frequencies [100, 500] transposed to [500, 100], one block for every point.
  The log-frequencies themselves are the value the host computes from the second argument by the same operations, in
  the same order, as the reference program does: they are named here by the reference's own stage and never opened.

  Point p writes block p of the [100, 1, 128] output, and those blocks tile it; by the payload lemma every lane of block
  p holds the sum of sample p's read terms. So the output array holds, at (p, 0, lane), `blockTotal` of sample p.
-/
import proofs.«119135_j21285857919689_1_alg».proof.Proof.Gen.KernelIdeal.Frame
import proofs.«119135_j21285857919689_1_alg».proof.Proof.Gen.ReferenceIdeal.Read
import proofs.«119135_j21285857919689_1_alg».proof.Proof.Payload
import Idealize.ShloMosaic.Lib.StableHlo.Run
import Idealize.ShloMosaic.Lib.Pipeline.Value
import Idealize.ShloMosaic.Lib.ValueLayout

set_option maxRecDepth 16384

noncomputable section

open scoped BigOperators

namespace Cert.Mixture.Blocks

open Cert.KernelIdeal Cert.KernelIdeal.Gen Idealize.ShloMosaic Idealize.ShloMosaic.TcCoe Idealize.SL.Sem
  Idealize.ShloMosaic.StableHlo Idealize.ShloMosaic.ValueIdx Cert.Mixture
open Idealize.ShloMosaic.Pipeline (Dat Cfg Window)

variable (m : (ℓ : Loc nD τ sig) → Buf (Elt Ideal) ℓ)

/-! ## The arrays the region finds -/

/-- The log-frequencies: the host's value from the second argument. -/
def logFreq (c : Dev nD) : LogFreq :=
  Cert.ReferenceIdeal.Read.val_main_v13 (F := Ideal) (m ((c : Thread nD τ).loc main_arg1))

/-- The counts, viewed sample by sample. -/
theorem counts_arr (c : Dev nD) : (V m c main_v15 : S100x2000x500.Idx → EReal)
    = shapeCast S100x2000x500 (m ((c : Thread nD τ).loc main_arg0)) shapeCasts_S10x10x2000x500_S100x2000x500 := by
  show StableHlo.after hostOps0 (fun b => m (c, b)) (Proc.devRef .tc main_v15) = _
  after_results
  rfl

/-- The weights, transposed and viewed sample by sample. -/
theorem weights_arr (c : Dev nD) : (V m c main_v17 : S100x1x100.Idx → EReal)
    = shapeCast S100x1x100
        (transpose S10x10x100 [1, 2, 0] (m ((c : Thread nD τ).loc main_arg2)) transposes_S100x10x10_S10x10x100_1_2_0)
        shapeCasts_S10x10x100_S100x1x100 := by
  show StableHlo.after hostOps0 (fun b => m (c, b)) (Proc.devRef .tc main_v17) = _
  after_results
  rfl

/-- The log-frequencies, transposed. -/
theorem logFreq_arr (c : Dev nD) : (V m c main_v14 : S500x100.Idx → EReal)
    = transpose S500x100 [1, 0] (logFreq m c) transposes_S100x500_S500x100_1_0 := by
  show StableHlo.after hostOps0 (fun b => m (c, b)) (Proc.devRef .tc main_v14) = _
  after_results
  rfl

/-! ## The layouts at an index -/

/-- Entry (p, r, o) of the counts viewed by sample is entry (p / 10, p % 10, r, o). -/
theorem counts_view (x : S10x10x2000x500.Idx → EReal) (p : Fin 100) (r : Fin 2000) (o : Fin 500) :
    shapeCast S100x2000x500 x shapeCasts_S10x10x2000x500_S100x2000x500 (ix3 p r o) = x (ix4 (tOf p) (sOf p) r o) :=
  shapeCast_apply x _ _ _ (by
    rw [Shape.rowMajor_val_four, Shape.rowMajor_val_three]
    show ((p.val / 10 * 10 + p.val % 10) * 2000 + r.val) * 500 + o.val = (p.val * 2000 + r.val) * 500 + o.val
    have := p.isLt
    omega)

/-- Entry (p, 0, k) of the weights transposed and viewed by sample is entry (k, p / 10, p % 10). -/
theorem weights_view (x : S100x10x10.Idx → EReal) (p : Fin 100) (k : Fin 100) :
    shapeCast S100x1x100 (transpose S10x10x100 [1, 2, 0] x transposes_S100x10x10_S10x10x100_1_2_0)
        shapeCasts_S10x10x100_S100x1x100 (ix3 p (0 : Fin 1) k) = x (ix3 k (tOf p) (sOf p)) := by
  refine (shapeCast_apply _ _ _ (ix3 (tOf p) (sOf p) k) (by
    rw [Shape.rowMajor_val_three, Shape.rowMajor_val_three]
    show (p.val / 10 * 10 + p.val % 10) * 100 + k.val = (p.val * 1 + 0) * 100 + k.val
    have := p.isLt
    omega)).trans ?_
  exact transpose_apply [1, 2, 0] x transposes_S100x10x10_S10x10x100_1_2_0 _ (ix3 k (tOf p) (sOf p)) (fun b => match b with
    | ⟨0, _⟩ => rfl
    | ⟨1, _⟩ => rfl
    | ⟨2, _⟩ => rfl)

/-! ## The grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: at point t the counts', the weights' and the output's block index is
    (t, 0, 0); the log-frequencies' is (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ t.val < 100 :=
  (by decide +kernel : ∀ t : Fin grid0.N, _)

/-- The sample a point works on. -/
def pt (t : Fin cfg0.N) : Fin 100 := ⟨t.val, (idx_facts t).2.2.2.2.2.2.2.2.2.2.2⟩

/-! ## Each input block at coordinates -/

/-- Point t's block of counts at (0, r, o) is the counts of sample t at (r, o). -/
theorem counts_blk (c : Dev nD) (t : Fin cfg0.N) (r : Fin 2000) (o : Fin 500) :
    iblk m c 0 t (ix3 (0 : Fin 1) r o) = m ((c : Thread nD τ).loc main_arg0) (ix4 (tOf (pt t)) (sOf (pt t)) r o) := by
  obtain ⟨e0, e1, e2, -⟩ := idx_facts t
  have hemb : ((cfg0.win 0).blk t).view.emb (ix3 (0 : Fin 1) r o) = ix3 (pt t) r o := by
    funext a
    apply Fin.ext
    match a with
    | ⟨0, _⟩ => show win0_0.index t (0 : Fin 3) * 1 + 1 * 0 = t.val; omega
    | ⟨1, _⟩ => show win0_0.index t (1 : Fin 3) * 2000 + 1 * r.val = r.val; omega
    | ⟨2, _⟩ => show win0_0.index t (2 : Fin 3) * 500 + 1 * o.val = o.val; omega
  show V m c main_v15 (((cfg0.win 0).blk t).view.emb (ix3 (0 : Fin 1) r o)) = _
  rw [hemb]
  exact (congrFun (counts_arr m c) (ix3 (pt t) r o)).trans (counts_view _ (pt t) r o)

/-- Every point's block of log-frequencies at (o, k) is the log-frequency of otu o in assemblage k. -/
theorem logFreq_blk (c : Dev nD) (t : Fin cfg0.N) (o : Fin 500) (k : Fin 100) :
    iblk m c 1 t (ix2 o k) = logFreq m c (ix2 k o) := by
  obtain ⟨-, -, -, e0, e1, -⟩ := idx_facts t
  have hemb : ((cfg0.win 1).blk t).view.emb (ix2 o k) = ix2 o k := by
    funext a
    apply Fin.ext
    match a with
    | ⟨0, _⟩ => show win0_1.index t (0 : Fin 2) * 500 + 1 * o.val = o.val; omega
    | ⟨1, _⟩ => show win0_1.index t (1 : Fin 2) * 100 + 1 * k.val = k.val; omega
  show V m c main_v14 (((cfg0.win 1).blk t).view.emb (ix2 o k)) = _
  rw [hemb]
  exact (congrFun (logFreq_arr m c) (ix2 o k)).trans (transpose_ix2_apply (logFreq m c) _ o k)

/-- Point t's block of weights at (0, 0, k) is the weight of assemblage k in sample t. -/
theorem weights_blk (c : Dev nD) (t : Fin cfg0.N) (k : Fin 100) :
    iblk m c 2 t (ix3 (0 : Fin 1) (0 : Fin 1) k) = m ((c : Thread nD τ).loc main_arg2) (ix3 k (tOf (pt t)) (sOf (pt t))) := by
  obtain ⟨-, -, -, -, -, e0, e1, e2, -⟩ := idx_facts t
  have hemb : ((cfg0.win 2).blk t).view.emb (ix3 (0 : Fin 1) (0 : Fin 1) k) = ix3 (pt t) (0 : Fin 1) k := by
    funext a
    apply Fin.ext
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 100 + 1 * k.val = k.val; omega
  show V m c main_v17 (((cfg0.win 2).blk t).view.emb (ix3 (0 : Fin 1) (0 : Fin 1) k)) = _
  rw [hemb]
  exact (congrFun (weights_arr m c) (ix3 (pt t) (0 : Fin 1) k)).trans (weights_view _ (pt t) k)

/-! ## The output array -/

/-- What the output array ends holding: at (p, 0, lane), the sum of sample p's read terms. -/
def outArr (c : Dev nD) : S100x1x128.Idx → EReal := fun i =>
  blockTotal (m ((c : Thread nD τ).loc main_arg0)) (logFreq m c) (m ((c : Thread nD τ).loc main_arg2)) ⟨(i 0).val, (i 0).isLt⟩

/-- The block sum depends on its three blocks entry by entry. -/
theorem blockSum_congr {X X' : Fin 2000 → Fin 500 → EReal} {Y Y' : Fin 500 → Fin 100 → EReal} {w w' : Fin 100 → EReal}
    (hX : ∀ r o, X r o = X' r o) (hY : ∀ o k, Y o k = Y' o k) (hw : ∀ k, w k = w' k) : blockSum X Y w = blockSum X' Y' w' := by
  have eX : X = X' := funext fun r => funext fun o => hX r o
  have eY : Y = Y' := funext fun o => funext fun k => hY o k
  have ew : w = w' := funext hw
  rw [eX, eY, ew]

/-- What point t writes back is block t of that array. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold out0_3
  rw [View.canon_unit_zero hz3]
  simp only [View.ld_unit_zero (S := S1x2000x500) hz3, View.ld_unit_zero (S := S500x100) hz2,
    View.ld_unit_zero (S := S1x1x100) hz3]
  obtain ⟨-, -, -, -, -, -, -, -, e0, e1, e2, -⟩ := idx_facts t
  funext y
  show k0_pay1 (iblk m c 0 t) (iblk m c 1 t) (iblk m c 2 t) y = outArr m c (((cfg0.win 3).blk t).view.emb y)
  refine (Cert.Mixture.Payload.pay_apply (iblk m c 0 t) (iblk m c 1 t) (iblk m c 2 t) y).trans ?_
  have hp : (⟨(((cfg0.win 3).blk t).view.emb y 0).val, (((cfg0.win 3).blk t).view.emb y 0).isLt⟩ : Fin 100) = pt t := by
    apply Fin.ext
    have hy : (y 0).val < 1 := (y 0).isLt
    show win0_3.index t (0 : Fin 3) * 1 + 1 * (y 0).val = t.val
    omega
  unfold outArr blockTotal
  rw [hp]
  exact blockSum_congr (fun r o => counts_blk m c t r o) (fun o k => logFreq_blk m c t o k) (fun k => weights_blk m c t k)

/-- An index of the output array is in point t's block iff each coordinate is in the block's range on its axis. -/
theorem mem_blk (t : Fin cfg0.N) (i : S100x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v18).slice (win0_3.rect t)).set ↔ _
  rw [View.set_slice_whole, Rect.mem_set_unit]
  exact Iff.rfl

/-- Every index (p, 0, lane) of the output array is in the block of the point that works on sample p. -/
theorem cover (i : S100x1x128.Idx) :
    ∃ t : Fin cfg0.N, (cfg0.win 3).flush t = true ∧ i ∈ ((cfg0.win 3).blk t).view.set := by
  have h0 : (i 0).val < 100 := (i 0).isLt
  have h1 : (i 1).val < 1 := (i 1).isLt
  have h2 : (i 2).val < 128 := (i 2).isLt
  have hN : grid0.N = 100 := N_0
  let t : Fin cfg0.N := ⟨(i 0).val, by show (i 0).val < grid0.N; omega⟩
  have ht : t.val = (i 0).val := rfl
  refine ⟨t, flush0_3 t, ?_⟩
  rw [mem_blk]
  obtain ⟨-, -, -, -, -, -, -, -, e0, e1, e2, -⟩ := idx_facts t
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 128 ≤ (i 2).val ∧ (i 2).val < win0_3.index t (2 : Fin 3) * 128 + 128
    omega

/-- The output array after the region. -/
theorem final (c : Dev nD) : (dats m 0 c).arrAt 3 cfg0.N = outArr m c :=
  (dats m 0 c).arrAt_eq_of_cover 3 (outArr m c) (fun t _ => flushed_eq m c t) cover

end Cert.Mixture.Blocks

end
-- ==== Proof.KernelRun.lean ====
/-
  The kernel program's run, with its results named.

  After the region the host takes lane 0 of every block of the [100, 1, 128] output, views the hundred numbers as a
  vector, sums them from zero and negates. The output array holds at (p, 0, lane) the sum of sample p's read terms, so
  the first result is minus the sum over the samples of those sums: the loss, sample by sample. The second result, the
  frequencies, is a value the host computed before the region from the second argument alone, by the reference's own
  operations; the region and the lines after it leave it alone. The third result is the third argument.
-/
import proofs.«119135_j21285857919689_1_alg».proof.Proof.Blocks
import proofs.«119135_j21285857919689_1_alg».proof.Proof.LibSumBlocks
import Idealize.ShloMosaic.PureOps.Ideal.Laws

set_option maxRecDepth 16384

noncomputable section

open scoped BigOperators

namespace Cert.Mixture.KernelRun

open Cert.KernelIdeal Cert.KernelIdeal.Gen Idealize.ShloMosaic Idealize.ShloMosaic.TcCoe Idealize.SL.Sem
  Idealize.ShloMosaic.StableHlo Idealize.ShloMosaic.ValueIdx Cert.Mixture Cert.Mixture.Blocks

variable (m : (ℓ : Loc nD τ sig) → Buf (Elt Ideal) ℓ) (ρ : Dev nD → PrngReg)

/-! ## The lines after the region, as one function of the output array -/

/-- Lane 0 of every block, summed from zero, negated. -/
def tailFn (A : S100x1x128.Idx → EReal) : S_.Idx → EReal :=
  Host.negf (Host.reduceAdd
    (shapeCast S100 (extractStridedSlice S100x1x1 ![0, 0, 0] A slices_S100x1x128_S100x1x1_0_0_0) shapeCasts_S100x1x1_S100)
    (constant (F := Ideal) S_ .f32 0x00000000#32) reducesTo_S100_S_d0 h_S_)

/-- Its value: minus the sum over p of the array's entry (p, 0, 0). -/
theorem tailFn_apply (A : S100x1x128.Idx → EReal) (i : S_.Idx) :
    tailFn A i = -(∑ p : Fin 100, A (ix3 p (0 : Fin 1) (0 : Fin 128))) := by
  unfold tailFn
  generalize hy : shapeCast S100 (extractStridedSlice S100x1x1 ![0, 0, 0] A slices_S100x1x128_S100x1x1_0_0_0)
    shapeCasts_S100x1x1_S100 = y0
  show -(Host.reduceAdd y0 (constant (F := Ideal) S_ .f32 0x00000000#32) reducesTo_S100_S_d0 h_S_ i) = _
  refine congrArg Neg.neg ?_
  simp only [Host.reduceAdd, Ideal.hostReduceAdd_def]
  refine (Ideal.hostReduceAdd_total reducesTo_S100_S_d0 (fun b => b.elim0) y0 _ i).trans ?_
  show Ideal.ofBits .f32 0x00000000#32 + ∑ j : S100.Idx, y0 j = _
  rw [Ideal.ofBits_zero_f32, zero_add, Cert.LibSumBlocks.sum_idx1]
  refine Finset.sum_congr rfl fun k _ => ?_
  rw [← hy]
  refine (shapeCast_apply _ _ (ix1 k) (ix3 k (0 : Fin 1) (0 : Fin 1)) (by
    rw [Shape.rowMajor_val_three, Shape.rowMajor_val_one]
    show (k.val * 1 + 0) * 1 + 0 = k.val
    omega)).trans ?_
  exact extractStridedSlice_apply _ A _ _ (ix3 k (0 : Fin 1) (0 : Fin 128)) (fun a => match a with
    | ⟨0, _⟩ => by show k.val = 0 + k.val; omega
    | ⟨1, _⟩ => rfl
    | ⟨2, _⟩ => rfl)

/-! ## The results after the run -/

/-- The first result is the loss. -/
theorem tail_loss (c : Dev nD) :
    Pipeline.afterTail₀ cfgs (dats m) 0 (V0 m) [hostOps1] c main_v22
      = fun _ => loss (m ((c : Thread nD τ).loc main_arg0)) (logFreq m c) (m ((c : Thread nD τ).loc main_arg2)) := by
  unfold Pipeline.afterTail₀
  show StableHlo.after hostOps1 _ (Proc.devRef .tc main_v22) = _
  after_results
  have harr : Pipeline.withArrays (cfgs 0).spec c (V0 m c) (fun w => (dats m 0 c).arrAt w (cfgs 0).N) (Proc.devRef .tc main_v18)
      = outArr m c :=
    (Pipeline.withArrays_arr spec0 launch0.win.arr_inj c _ _ 3).trans (final m c)
  show tailFn (Pipeline.withArrays (cfgs 0).spec c (V0 m c) (fun w => (dats m 0 c).arrAt w (cfgs 0).N)
    (Proc.devRef .tc main_v18)) = _
  refine (congrArg tailFn harr).trans ?_
  funext i
  rw [tailFn_apply]
  rfl

/-- The frequencies, as the host computes them before the region. -/
theorem freq_arr (c : Dev nD) : (V m c main_v10 : S100x500.Idx → EReal)
    = Cert.ReferenceIdeal.Read.val_main_v10 (F := Ideal) (m ((c : Thread nD τ).loc main_arg1)) := by
  show StableHlo.after hostOps0 (fun b => m (c, b)) (Proc.devRef .tc main_v10) = _
  after_results
  rfl

/-- The second result is the frequencies: nothing after the host's first lines writes them. -/
theorem tail_freq (c : Dev nD) :
    Pipeline.afterTail₀ cfgs (dats m) 0 (V0 m) [hostOps1] c main_v10
      = Cert.ReferenceIdeal.Read.val_main_v10 (F := Ideal) (m ((c : Thread nD τ).loc main_arg1)) := by
  unfold Pipeline.afterTail₀
  show StableHlo.after hostOps1 _ (Proc.devRef .tc main_v10) = _
  after_results
  rw [Pipeline.withArrays_of_ne _ c (V0 m c) _ main_v10 (by exact (by decide : ∀ w, Pipeline.arrRef spec0 w ≠ main_v10))]
  exact freq_arr m c

/-- Every weakly fair execution of the kernel program ends with the loss, the frequencies and the weights as its results
    and its arguments unchanged. -/
theorem run : θ_run defs (onTc (τ := τ) (main (F := Ideal))) ⟨m, fun _ => 0, ρ⟩ (fun r => ∀ c : Dev nD,
      r.2.mem ((c.tc : Thread nD τ).loc main_v22)
        = (fun _ => loss (m ((c : Thread nD τ).loc main_arg0)) (logFreq m c) (m ((c : Thread nD τ).loc main_arg2)))
      ∧ r.2.mem ((c.tc : Thread nD τ).loc main_v10)
        = Cert.ReferenceIdeal.Read.val_main_v10 (F := Ideal) (m ((c : Thread nD τ).loc main_arg1))
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v22 (Pipeline.mem_restRefs_of main_v22 (by decide) (by decide))).trans (tail_loss m c),
      ((h c).2 main_v10 (Pipeline.mem_restRefs_of main_v10 (by decide) (by decide))).trans (tail_freq m c),
      ((h c).2 main_arg2 (Pipeline.mem_restRefs_of main_arg2 (by decide) (by decide))).trans (W_main_arg2 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Mixture.KernelRun

end
-- ==== Proof.lean ====
/-
  The kernel and its reference compute one loss.

  The loss is minus the sum, over the reads r of the samples (t, s), of the stable weighted log-sum-exp of the read's
  logits: with rl k = ∑ o, counts (t,s,r,o) · L (k,o) and x = max_k rl k, the read's term is
  x + log (∑ k, β (k,t,s) · exp (rl k − x) + ε). Here L = log (softmax (θ) + ε) is computed from the second argument
  by the same host operations in both programs, and is carried through as one value, never opened.

  The kernel program works sample by sample: a grid of 100 points, point p = 10·t + s forming the sample's logits as
  a matrix product, its reads' terms, and their sum, written to every lane of block p of its output; the host then adds
  lane 0 of the hundred blocks and negates. The reference forms all logits in one contraction and sums the terms of
  all reads at once, then negates. On the extended reals a matrix product into zeros and a contraction are the same
  plain sum, a change of float format is the identity, and a sum may be regrouped freely; so the two results are the
  same number, for all inputs. The other two results are the frequencies softmax (θ), the same host value in both
  programs, and the weights β, returned as given.

  Nothing the precondition says is used: no law applied here fails at an infinity. The idealized kernel is the
  kernel's own text read at the extended reals, no operation rewritten.
-/
import proofs.«119135_j21285857919689_1_alg».proof.Defs
import proofs.«119135_j21285857919689_1_alg».proof.Proof.Gen.Kernel
import proofs.«119135_j21285857919689_1_alg».proof.Proof.Gen.Kernel.Frame
import proofs.«119135_j21285857919689_1_alg».proof.Proof.Gen.KernelIdeal
import proofs.«119135_j21285857919689_1_alg».proof.Proof.Gen.KernelIdeal.Frame
import proofs.«119135_j21285857919689_1_alg».proof.Proof.Gen.ReferenceIdeal
import proofs.«119135_j21285857919689_1_alg».proof.Proof.Gen.ReferenceIdeal.Run
import proofs.«119135_j21285857919689_1_alg».proof.Proof.Gen.ReferenceIdeal.Read
import proofs.«119135_j21285857919689_1_alg».proof.Proof.Gen.Pre_finite_inputs
import proofs.«119135_j21285857919689_1_alg».proof.Proof.Spec
import proofs.«119135_j21285857919689_1_alg».proof.Proof.RefSide
import proofs.«119135_j21285857919689_1_alg».proof.Proof.KernelRun

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- No operation was rewritten. -/
theorem preserves : Cert.preserves_Kernel_KernelIdeal := trivial

/-- From memories that agree on the arguments both programs end with the loss, the frequencies and the weights. -/
theorem algebraic : Cert.algebraic_KernelIdeal_ReferenceIdeal := by
  intro m ρ m' ρ' _ hagree
  refine ⟨fun c => fun _ => Cert.Mixture.loss (m ((c.tc : Thread Cert.KernelIdeal.nD Cert.KernelIdeal.τ).loc Cert.KernelIdeal.main_arg0))
      (Cert.Mixture.Blocks.logFreq m c) (m ((c.tc : Thread Cert.KernelIdeal.nD Cert.KernelIdeal.τ).loc Cert.KernelIdeal.main_arg2)),
    fun c => Cert.ReferenceIdeal.Read.val_main_v10 (F := Ideal)
      (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg2),
    Cert.Mixture.KernelRun.run m ρ, ?_⟩
  refine (θ_run Cert.ReferenceIdeal.defs _ _).mono (fun _ h c => ⟨?_, ?_, ?_, (h c).2.2.2.1, (h c).2.2.2.2.1, (h c).2.2.2.2.2⟩)
    (Cert.ReferenceIdeal.Value.run (F := Ideal) m' ρ')
  · rw [(h c).1, Cert.ReferenceIdeal.Read.val_main_v31_eq, Cert.Mixture.RefSide.result_eq, (hagree c).1, (hagree c).2.1,
      (hagree c).2.2, Cert.Mixture.lossByRead_eq_loss]
    rfl
  · rw [(h c).2.1, Cert.ReferenceIdeal.Read.val_main_v10_eq, (hagree c).2.1]
  · rw [(h c).2.2.1, (hagree c).2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
